-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) (main_arg2 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  main_v13
-- ==== Kernel.lean ====
abbrev S16777216 : Shape := ⟨1, ![16777216]⟩
abbrev S131072x128 : Shape := ⟨2, ![131072, 128]⟩
abbrev S2x1x128 : Shape := ⟨3, ![2, 1, 128]⟩
abbrev S4096x128 : Shape := ⟨2, ![4096, 128]⟩
abbrev S1x1x128 : Shape := ⟨3, ![1, 1, 128]⟩
abbrev S1x128 : Shape := ⟨2, ![1, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S2x1x10 : Shape := ⟨3, ![2, 1, 10]⟩
abbrev S2x10 : Shape := ⟨2, ![2, 10]⟩
abbrev S_ : Shape := ⟨0, ![]⟩
abbrev S10 : Shape := ⟨1, ![10]⟩

abbrev nBuf : Space → Nat
  | .hbm => 27
  | .vmem => 10
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S2x1x128, .f32⟩
  | .hbm, ⟨7, _⟩ => ⟨S2x1x128, .f32⟩
  | .hbm, ⟨8, _⟩ => ⟨S2x1x10, .f32⟩
  | .hbm, ⟨9, _⟩ => ⟨S2x10, .f32⟩
  | .hbm, ⟨10, _⟩ => ⟨S_, .f32⟩
  | .hbm, ⟨11, _⟩ => ⟨S10, .f32⟩
  | .hbm, ⟨12, _⟩ => ⟨S2x1x10, .f32⟩
  | .hbm, ⟨13, _⟩ => ⟨S2x10, .f32⟩
  | .hbm, ⟨14, _⟩ => ⟨S_, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16777216_S131072x128 : S16777216.ShapeCasts S131072x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x128_d1_w32 : S1x128.Iotas .tc 32 [1]
  natLt_1_32 : 1 < 32
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  broadcasts_S1x1_S1x128 : S1x1.Broadcasts S1x128
  slices_S2x1x128_S2x1x10_0_0_0 : S2x1x128.Slices ![0, 0, 0] S2x1x10
  shapeCasts_S2x1x10_S2x10 : S2x1x10.ShapeCasts S2x10
  reducesTo_S2x10_S10_d0 : S2x10.ReducesTo [0] S10
  h_S_ : 0 < S_.numel
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S10 : Shape := ⟨1, ![10]⟩
abbrev S16777216x1 : Shape := ⟨2, ![16777216, 1]⟩

abbrev nBuf : Space → Nat
  | .hbm => 70
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S16777216, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S16777216, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S16777216, .i32⟩
  | .hbm, ⟨40, _⟩ => ⟨S16777216, .i32⟩
  | .hbm, ⟨41, _⟩ => ⟨S_, .i32⟩
  | .hbm, ⟨42, _⟩ => ⟨S16777216, .i32⟩
  | .hbm, ⟨43, _⟩ => ⟨S16777216, .i32⟩
  | .hbm, ⟨44, _⟩ => ⟨S_, .f32⟩
  | .hbm, ⟨45, _⟩ => ⟨S16777216, .f32⟩
  | .hbm, ⟨46, _⟩ => ⟨S_, .f32⟩
  | .hbm, ⟨47, _⟩ => ⟨S10, .f32⟩
  | .hbm, ⟨48, _⟩ => ⟨S16777216x1, .i32⟩
  | .hbm, ⟨49, _⟩ => ⟨S10, .f32⟩
  | .hbm, ⟨50, _⟩ => ⟨S_, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S_, .i32⟩
  | .hbm, ⟨57, _⟩ => ⟨S16777216, .i32⟩
  | .hbm, ⟨58, _⟩ => ⟨S16777216, .i1⟩
  | .hbm, ⟨59, _⟩ => ⟨S_, .i32⟩
  | .hbm, ⟨60, _⟩ => ⟨S16777216, .i32⟩
  | .hbm, ⟨61, _⟩ => ⟨S16777216, .i32⟩
  | .hbm, ⟨62, _⟩ => ⟨S16777216, .i32⟩
  | .hbm, ⟨63, _⟩ => ⟨S16777216x1, .i32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_c_12 : Ref sig .tc := ⟨.hbm, 56, rfl⟩
abbrev main_v34 : Ref sig .tc := ⟨.hbm, 57, rfl⟩
abbrev main_v35 : Ref sig .tc := ⟨.hbm, 58, rfl⟩
abbrev main_c_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_cst_15 : Ref sig .tc := ⟨.hbm, 68, rfl⟩
abbrev main_v43 : Ref sig .tc := ⟨.hbm, 69, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S10 : S_.BroadcastsInDim S10 (![] : Fin 0 → Fin S10.rank)
  bcast_S16777216_S16777216x1_0 : S16777216.BroadcastsInDim S16777216x1 (![0] : Fin 1 → Fin S16777216x1.rank)
  reducesTo_S16777216_S_d0 : S16777216.ReducesTo [0] S_
  h_S_ : 0 < S_.numel
  scatter_S10_S16777216x1_S16777216_n_0_0_1_wf : ScatterDims.WF S10 S16777216x1 S16777216 [] [0] [0] 1
  gather_S10_S16777216x1_S16777216_n_0_n_n_0_1_1_wf : GatherDims.WF S10 S16777216x1 S16777216 [] [0] [] [0] [] 1 ![1]

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf
def gather_S10_S16777216x1_S16777216_n_0_n_n_0_1_1 : GatherDims S10 S16777216x1 S16777216 where
  offsetDims := []
  collapsedSliceDims := [0]
  operandBatchingDims := []
  startIndicesBatchingDims := []
  startIndexMap := [0]
  indexVectorDim := 1
  sliceSizes := ![1]
  wf := gather_S10_S16777216x1_S16777216_n_0_n_n_0_1_1_wf

class Facts : Prop extends Facts₀ where

variable [Facts]
-- ==== Proof.Steps.lean ====
/-
  One grid point's work on the two accumulators, as plain functions of a block.

  A point holds a block of 4096 × 128 pairs. For each bin k = 0,…,9 it forms the number of pairs of the block in bin k
  (a sum over the block of the indicator of "bin = k") and the sum of their losses (the same sum of "loss if bin = k
  else 0"), and adds each into lane k of a 128-lane accumulator row, leaving the other lanes as they were. The ten
  additions are made one after the other on the whole row, so a point's effect is the tenfold composite below.
-/
import proofs.«172911_j51556787421840_2_alg».proof.Proof.Gen.KernelIdeal.Skeleton

noncomputable section

namespace Cert.KernelIdeal.Bins

open Cert.KernelIdeal Cert.KernelIdeal.Gen
open Idealize.ShloMosaic Idealize.SL.Sem

variable {F : FTy → Type} [FloatOps F]

/-- The sum of a block over its lanes and then over its rows, as the body spells it: one entry. -/
def blockSum (v : FVec F S4096x128 .f32) : FVec F S1 .f32 :=
  multiReduction .add [0] S1
    (shapeCast S4096x1 (multiReduction .add [1] S4096 v 0x00000000#32 reduces_S4096x128_S4096 (.inl rfl) rfl) shapeCasts_S4096_S4096x1)
    0x00000000#32 reduces_S4096x1_S1 (.inl rfl) rfl

/-- Add the one entry `s` into lane `k` of the accumulator row `prev` (zero is added to the other lanes). -/
def addLane (k : BitVec 32) (s : FVec F S1 .f32) (prev : Vec F S1x1x128 .f32) : FVec F S1x1x128 .f32 :=
  shapeCast S1x1x128
    (addf (shapeCast S1x128 prev shapeCasts_S1x1x128_S1x128)
      (select (cmpi .eq (iota .tc S1x128 32 [1] iota_S1x128_d1_w32) (broadcast S1x128 k))
        (broadcastTo S1x128 (shapeCast S1x1 (shapeCast S1x1 s shapeCasts_S1_S1x1) shapeCasts_S1x1_S1x1) broadcasts_S1x1_S1x128)
        (broadcast S1x128 (Scalar.ofBits .f32 0x00000000#32))))
    shapeCasts_S1x128_S1x1x128

/-- The block's indicator of bin `k`, as a float (one where the bin is `k`, zero elsewhere). -/
def indicator (k : BitVec 32) (bins : IVec S4096x128 32) : FVec F S4096x128 .f32 :=
  sitofp .f32 (extui 32 (cmpi .eq bins (broadcast S4096x128 k)) natLt_1_32)

/-- The block's losses kept where the bin is `k`, zero elsewhere. -/
def masked (k : BitVec 32) (bins : IVec S4096x128 32) (loss : FVec F S4096x128 .f32) : FVec F S4096x128 .f32 :=
  select (cmpi .eq bins (broadcast S4096x128 k)) loss (broadcast S4096x128 (Scalar.ofBits .f32 0x00000000#32))

/-- Bin `k`'s step on the count row and on the loss row. -/
def stepCnt (k : BitVec 32) (bins : IVec S4096x128 32) (prev : Vec F S1x1x128 .f32) : FVec F S1x1x128 .f32 :=
  addLane k (blockSum (indicator (F := F) k bins)) prev
def stepLoss (k : BitVec 32) (bins : IVec S4096x128 32) (loss : FVec F S4096x128 .f32) (prev : Vec F S1x1x128 .f32) :
    FVec F S1x1x128 .f32 :=
  addLane k (blockSum (masked k bins loss)) prev

/-- All ten bins in order, on the count row and on the loss row. -/
def pointCnt (bins : IVec S4096x128 32) (prev : Vec F S1x1x128 .f32) : FVec F S1x1x128 .f32 :=
  stepCnt 9#32 bins (stepCnt 8#32 bins (stepCnt 7#32 bins (stepCnt 6#32 bins (stepCnt 5#32 bins
    (stepCnt 4#32 bins (stepCnt 3#32 bins (stepCnt 2#32 bins (stepCnt 1#32 bins (stepCnt 0#32 bins prev)))))))))
def pointLoss (bins : IVec S4096x128 32) (loss : FVec F S4096x128 .f32) (prev : Vec F S1x1x128 .f32) : FVec F S1x1x128 .f32 :=
  stepLoss 9#32 bins loss (stepLoss 8#32 bins loss (stepLoss 7#32 bins loss (stepLoss 6#32 bins loss (stepLoss 5#32 bins loss
    (stepLoss 4#32 bins loss (stepLoss 3#32 bins loss (stepLoss 2#32 bins loss (stepLoss 1#32 bins loss (stepLoss 0#32 bins loss prev)))))))))

/-- The lane numbers 0,…,127 of a row. -/
abbrev lanes : IVec S1x128 32 := iota .tc S1x128 32 [1] iota_S1x128_d1_w32

/-! The body's payloads are these steps: each is cut at a different place of the same chain of operations. -/

theorem cnt0 (a b c : Vec F S4096x128 .f32) (prev : Vec F S1x1x128 .f32) :
    k0_pay12 lanes (k0_pay10 a b c) prev = stepCnt 0#32 (k0_pay8 a b c) prev := rfl
theorem cnt1 (B : IVec S4096x128 32) (prev : Vec F S1x1x128 .f32) :
    k0_pay17 (F := F) lanes (k0_pay15 B) prev = stepCnt 1#32 B prev := rfl
theorem cnt2 (B : IVec S4096x128 32) (prev : Vec F S1x1x128 .f32) :
    k0_pay22 (F := F) lanes (k0_pay20 B) prev = stepCnt 2#32 B prev := rfl
theorem cnt3 (B : IVec S4096x128 32) (prev : Vec F S1x1x128 .f32) :
    k0_pay27 (F := F) lanes (k0_pay25 B) prev = stepCnt 3#32 B prev := rfl
theorem cnt4 (B : IVec S4096x128 32) (prev : Vec F S1x1x128 .f32) :
    k0_pay32 (F := F) lanes (k0_pay30 B) prev = stepCnt 4#32 B prev := rfl
theorem cnt5 (B : IVec S4096x128 32) (prev : Vec F S1x1x128 .f32) :
    k0_pay37 (F := F) lanes (k0_pay35 B) prev = stepCnt 5#32 B prev := rfl
theorem cnt6 (B : IVec S4096x128 32) (prev : Vec F S1x1x128 .f32) :
    k0_pay42 (F := F) lanes (k0_pay40 B) prev = stepCnt 6#32 B prev := rfl
theorem cnt7 (B : IVec S4096x128 32) (prev : Vec F S1x1x128 .f32) :
    k0_pay47 (F := F) lanes (k0_pay45 B) prev = stepCnt 7#32 B prev := rfl
theorem cnt8 (B : IVec S4096x128 32) (prev : Vec F S1x1x128 .f32) :
    k0_pay52 (F := F) lanes (k0_pay50 B) prev = stepCnt 8#32 B prev := rfl
theorem cnt9 (B : IVec S4096x128 32) (prev : Vec F S1x1x128 .f32) :
    k0_pay2 (F := F) lanes (k0_pay55 B) prev = stepCnt 9#32 B prev := rfl

theorem loss0 (a b c : Vec F S4096x128 .f32) (L : FVec F S4096x128 .f32) (prev : Vec F S1x1x128 .f32) :
    k0_pay13 L lanes (k0_pay10 a b c) prev = stepLoss 0#32 (k0_pay8 a b c) L prev := rfl
theorem loss1 (B : IVec S4096x128 32) (L : FVec F S4096x128 .f32) (prev : Vec F S1x1x128 .f32) :
    k0_pay18 L lanes (k0_pay14 B) prev = stepLoss 1#32 B L prev := rfl
theorem loss2 (B : IVec S4096x128 32) (L : FVec F S4096x128 .f32) (prev : Vec F S1x1x128 .f32) :
    k0_pay23 L lanes (k0_pay19 B) prev = stepLoss 2#32 B L prev := rfl
theorem loss3 (B : IVec S4096x128 32) (L : FVec F S4096x128 .f32) (prev : Vec F S1x1x128 .f32) :
    k0_pay28 L lanes (k0_pay24 B) prev = stepLoss 3#32 B L prev := rfl
theorem loss4 (B : IVec S4096x128 32) (L : FVec F S4096x128 .f32) (prev : Vec F S1x1x128 .f32) :
    k0_pay33 L lanes (k0_pay29 B) prev = stepLoss 4#32 B L prev := rfl
theorem loss5 (B : IVec S4096x128 32) (L : FVec F S4096x128 .f32) (prev : Vec F S1x1x128 .f32) :
    k0_pay38 L lanes (k0_pay34 B) prev = stepLoss 5#32 B L prev := rfl
theorem loss6 (B : IVec S4096x128 32) (L : FVec F S4096x128 .f32) (prev : Vec F S1x1x128 .f32) :
    k0_pay43 L lanes (k0_pay39 B) prev = stepLoss 6#32 B L prev := rfl
theorem loss7 (B : IVec S4096x128 32) (L : FVec F S4096x128 .f32) (prev : Vec F S1x1x128 .f32) :
    k0_pay48 L lanes (k0_pay44 B) prev = stepLoss 7#32 B L prev := rfl
theorem loss8 (B : IVec S4096x128 32) (L : FVec F S4096x128 .f32) (prev : Vec F S1x1x128 .f32) :
    k0_pay53 L lanes (k0_pay49 B) prev = stepLoss 8#32 B L prev := rfl
theorem loss9 (B : IVec S4096x128 32) (L : FVec F S4096x128 .f32) (prev : Vec F S1x1x128 .f32) :
    k0_pay3 L lanes (k0_pay54 B) (Scalar.ofBits .f32 0x00000000#32) prev = stepLoss 9#32 B L prev := rfl

end Cert.KernelIdeal.Bins

end
-- ==== Proof.Pieces.lean ====
/-
  What one grid point leaves in the two accumulator rows, in closed form.

  At the first point of a partition both rows are zeroed and the ten bins' steps are then applied; at every other point
  the steps are applied to what the point before left. Each step stores the whole row, so of all the stores the last one
  decides the row, and every load of the row in between reads the store just before it.
-/
import proofs.«172911_j51556787421840_2_alg».proof.Proof.Gen.KernelIdeal.Frame
import proofs.«172911_j51556787421840_2_alg».proof.Proof.Steps
import Idealize.ShloMosaic.Lib.Pipeline.Value

set_option maxRecDepth 16384

noncomputable section

namespace Cert.KernelIdeal.Bins

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole buffer after a store of the whole buffer reads that store's value, whatever was stored before. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem hz3 : (![0, 0, 0] : Fin 3 → Nat) = fun _ => 0 := by
  funext a; match a with | ⟨0, _⟩ => rfl | ⟨1, _⟩ => rfl | ⟨2, _⟩ => rfl
theorem hz2 : (![0, 0] : Fin 2 → Nat) = fun _ => 0 := by
  funext a; match a with | ⟨0, _⟩ => rfl | ⟨1, _⟩ => rfl

section
variable (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1x128 .f32) (harg5 : arg5.IsWhole) (arg6 : Memref sig .tc .vmem S1x1x128 .f32) (harg6 : arg6.IsWhole)

set_option maxHeartbeats 4000000 in
/-- A later point's count row: the ten steps over the row of the point before. -/
theorem out_B_3 (hc0 : ¬cond0_0 i) (x0 x1 x2 : Vec F S4096x128 .f32) (xo3 xo4 : Vec F S1x1x128 .f32) :
    out0_B_3 c i arg2 harg2 arg3 harg3 arg4 harg4 arg5 harg5 arg6 harg6 hc0 x0 x1 x2 xo3 xo4 = pointCnt (k0_pay8 x0 x1 x2) xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_cons_unit_zero hz3]
  simp only [readCov_cons_whole (S := S1x1x128) _ hz3, View.readAt_eq_ld, harg2.read_unread, harg3.read_unread, harg4.read_unread,
    harg5.read_unread, harg6.read_unread, View.ld_unit_zero (S := S4096x128) hz2, View.ld_unit_zero (S := S1x1x128) hz3]
  rfl
set_option maxHeartbeats 4000000 in
/-- A later point's loss row: the ten steps over the row of the point before. -/
theorem out_B_4 (hc0 : ¬cond0_0 i) (x0 x1 x2 : Vec F S4096x128 .f32) (xo3 xo4 : Vec F S1x1x128 .f32) :
    out0_B_4 c i arg2 harg2 arg3 harg3 arg4 harg4 arg5 harg5 arg6 harg6 hc0 x0 x1 x2 xo3 xo4 = pointLoss (k0_pay8 x0 x1 x2) (k0_pay9 x0 x1 x2) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_cons_unit_zero hz3]
  simp only [readCov_cons_whole (S := S1x1x128) _ hz3, View.readAt_eq_ld, harg2.read_unread, harg3.read_unread, harg4.read_unread,
    harg5.read_unread, harg6.read_unread, View.ld_unit_zero (S := S4096x128) hz2, View.ld_unit_zero (S := S1x1x128) hz3]
  rfl

set_option maxHeartbeats 4000000 in
/-- A partition's first point, count row: the ten steps over the zeroed row. -/
theorem out_A_3 (hc0 : cond0_0 i) (x0 x1 x2 : Vec F S4096x128 .f32) :
    out0_A_3 c i arg2 harg2 arg3 harg3 arg4 harg4 arg5 harg5 arg6 harg6 hc0 x0 x1 x2 = pointCnt (k0_pay8 x0 x1 x2) (k0_pay4 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero hz3]
  simp only [readCov_cons_whole (S := S1x1x128) _ hz3, View.readAt_eq_ld, harg2.read_unread, harg3.read_unread, harg4.read_unread,
    harg5.read_unread, harg6.read_unread, View.ld_unit_zero (S := S4096x128) hz2, View.ld_unit_zero (S := S1x1x128) hz3]
  rfl

set_option maxHeartbeats 4000000 in
/-- A partition's first point, loss row: the ten steps over the zeroed row. -/
theorem out_A_4 (hc0 : cond0_0 i) (x0 x1 x2 : Vec F S4096x128 .f32) :
    out0_A_4 c i arg2 harg2 arg3 harg3 arg4 harg4 arg5 harg5 arg6 harg6 hc0 x0 x1 x2 = pointLoss (k0_pay8 x0 x1 x2) (k0_pay9 x0 x1 x2) (k0_pay5 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero hz3]
  simp only [readCov_cons_whole (S := S1x1x128) _ hz3, View.readAt_eq_ld, harg2.read_unread, harg3.read_unread, harg4.read_unread,
    harg5.read_unread, harg6.read_unread, View.ld_unit_zero (S := S4096x128) hz2, View.ld_unit_zero (S := S1x1x128) hz3]
  rfl

end

end Cert.KernelIdeal.Bins

end
-- ==== Proof.Spec.lean ====
/-
  The quantity both programs compute, stated once over the three flat argument arrays.

  Every pair n has a hinge loss  loss n = max 0 (-t·(a - b) + 0)  and a bin  bin n ∈ {0,…,9}: the floor of ten times
  the logistic of  -(a - b)·(2t - 1) + 0, clipped into [0, 9].  With  count k  the number of pairs in bin k and
  weight k = (max (count k) 1) ^ (-3/4),  the result is the weighted sum of the losses over 2^24:

      one program forms   Σ_k weight k · (Σ_{n in bin k} loss n),
      the other           Σ_n loss n · weight (bin n).

  They agree on the extended reals because every loss is nonnegative: a factor distributes over a sum of nonnegative
  terms there, whatever the factor, and the rest is commutativity of finite sums.
-/
import Idealize.ShloMosaic.PureOps.Ideal
import Idealize.ShloMosaic.PureOps.Ideal.Laws

noncomputable section

open scoped BigOperators

namespace Cert.Spec

open Idealize.ShloMosaic

/-- The index set of the flat argument arrays. -/
abbrev SN : Shape := ⟨1, ![16777216]⟩

/-- The float literals the programs share, kept as their words: 2, 1, 10, -3/4 and 2^24. -/
abbrev two : EReal := Ideal.ofBits .f32 0x40000000#32
abbrev one : EReal := Ideal.ofBits .f32 0x3F800000#32
abbrev ten : EReal := Ideal.ofBits .f32 0x41200000#32
abbrev expo : EReal := Ideal.ofBits .f32 0xBF400000#32
abbrev total : EReal := Ideal.ofBits .f32 0x4B800000#32

/-- The word of 1.0 denotes the number one. -/
theorem one_eq : one = 1 := by
  simp [Ideal.ofBits, Ideal.ieee, -EReal.coe_mul]; norm_num

/-- The hinge loss of one pair. -/
def lossAt (a b t : EReal) : EReal := max 0 (-t * (a - b) + 0)

theorem lossAt_nonneg (a b t : EReal) : 0 ≤ lossAt a b t := le_max_left _ _

/-- The gradient-norm proxy of one pair: the logistic of the signed margin. -/
def gAt (a b t : EReal) : EReal := Ideal.logistic (-(a - b) * (two * t - one) + 0)

/-- The bin of one pair as the 32-bit word both programs compute: floor of ten times the proxy, converted, clipped. -/
def binWord (a b t : EReal) : BitVec 32 :=
  IntOp.minsi 9#32 (IntOp.maxsi 0#32 (Ideal.fptosi 32 (Ideal.liftRound Int.floor (gAt a b t * ten))))

/-- A word clipped (signed) into [0, 9] is, unsigned, below ten. -/
theorem clip_lt (x : BitVec 32) : (IntOp.minsi 9#32 (IntOp.maxsi 0#32 x)).toNat < 10 := by
  unfold IntOp.minsi IntOp.maxsi
  have h0 : (0#32 : BitVec 32).toInt = 0 := by decide
  have h9 : (9#32 : BitVec 32).toInt = 9 := by decide
  have hx := BitVec.toInt_eq_toNat_cond x
  have hlt := x.isLt
  by_cases h1 : x.slt 0#32
  · rw [if_pos h1]
    have : ¬ (9#32 : BitVec 32).slt 0#32 := by decide
    rw [if_neg this]; decide
  · rw [if_neg h1]
    rw [BitVec.slt_iff_toInt_lt, h0] at h1
    by_cases h2 : (9#32 : BitVec 32).slt x
    · rw [if_pos h2]; decide
    · rw [if_neg h2]
      rw [BitVec.slt_iff_toInt_lt, h9] at h2
      split_ifs at hx <;> omega

/-- The bin as a number below ten. -/
def binOf (a b t : EReal) : Fin 10 := ⟨(binWord a b t).toNat, clip_lt _⟩

section Arrays
variable (X0 X1 X2 : SN.Idx → EReal)

/-- The loss and the bin of pair `n`. -/
def lossArr (n : SN.Idx) : EReal := lossAt (X0 n) (X1 n) (X2 n)
def binArr (n : SN.Idx) : Fin 10 := binOf (X0 n) (X1 n) (X2 n)

/-- How many pairs fall in bin `k`, as the sum of ones the programs form. -/
def count (k : Fin 10) : EReal := ∑ n : SN.Idx, if binArr X0 X1 X2 n = k then (1 : EReal) else 0

/-- The losses of bin `k`, summed. -/
def binLoss (k : Fin 10) : EReal := ∑ n : SN.Idx, if binArr X0 X1 X2 n = k then lossArr X0 X1 X2 n else 0

/-- The weight of bin `k`: its count, at least one, to the power -3/4. -/
def weight (k : Fin 10) : EReal := Ideal.pow (max (count X0 X1 X2 k) one) expo

/-- Bin by bin: the weighted sum of the bins' losses, over 2^24. -/
def binwise : EReal := Ideal.div (0 + ∑ k : Fin 10, weight X0 X1 X2 k * binLoss X0 X1 X2 k) total

/-- Pair by pair: every loss times its bin's weight, summed, over 2^24. -/
def pairwise : EReal :=
  Ideal.div (0 + ∑ n : SN.Idx, lossArr X0 X1 X2 n * weight X0 X1 X2 (binArr X0 X1 X2 n)) total

end Arrays

/-- On the extended reals a factor distributes over a finite sum of nonnegative terms. -/
theorem mul_sum_of_nonneg {ι : Type} (s : Finset ι) (c : EReal) (f : ι → EReal) (hf : ∀ n, 0 ≤ f n) :
    c * ∑ n ∈ s, f n = ∑ n ∈ s, c * f n := by
  classical
  induction s using Finset.induction_on with
  | empty => simp
  | insert a s ha ih =>
    rw [Finset.sum_insert ha, Finset.sum_insert ha,
      EReal.left_distrib_of_nonneg (hf a) (Finset.sum_nonneg fun n _ => hf n), ih]

/-- Grouping a weighted sum of nonnegative terms by bin. -/
theorem regroup {ι : Type} [Fintype ι] (bin : ι → Fin 10) (loss : ι → EReal) (hl : ∀ n, 0 ≤ loss n)
    (w : Fin 10 → EReal) :
    ∑ k : Fin 10, w k * ∑ n : ι, (if bin n = k then loss n else 0) = ∑ n : ι, loss n * w (bin n) := by
  have h1 : ∀ k : Fin 10, w k * ∑ n : ι, (if bin n = k then loss n else 0)
      = ∑ n : ι, w k * (if bin n = k then loss n else 0) := fun k =>
    mul_sum_of_nonneg _ _ _ fun n => by split_ifs; exact hl n; exact le_rfl
  simp only [h1]
  rw [Finset.sum_comm]
  refine Finset.sum_congr rfl fun n _ => ?_
  simp only [mul_ite, mul_zero, Finset.sum_ite_eq, Finset.mem_univ, if_true]
  exact mul_comm _ _

/-- The two forms of the result are one extended real. -/
theorem binwise_eq_pairwise (X0 X1 X2 : SN.Idx → EReal) : binwise X0 X1 X2 = pairwise X0 X1 X2 := by
  unfold binwise pairwise binLoss
  rw [regroup (binArr X0 X1 X2) (lossArr X0 X1 X2) (fun n => lossAt_nonneg _ _ _) (weight X0 X1 X2)]

end Cert.Spec

end
-- ==== Proof.StepsAt.lean ====
/-
  The steps read on the extended reals, one entry at a time.

  A block's sum over lanes and rows is the double sum of its entries; adding an entry into lane k of a row changes
  lane k alone; the indicator of a bin is one or zero and the masked loss is the loss or zero; the bin word and the loss
  of an entry are the specification's functions of the three inputs there (0 - x is -x, and the zero word is 0). So a
  point adds, into each lane k below ten, the block's count of bin k (on the count row) or the block's loss of bin k
  (on the loss row), and leaves every other lane as it was.
-/
import proofs.«172911_j51556787421840_2_alg».proof.Proof.Steps
import proofs.«172911_j51556787421840_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bins

open Cert.KernelIdeal Cert.KernelIdeal.Gen
open Idealize.ShloMosaic Idealize.SL.Sem Idealize.ShloMosaic.ValueIdx

/-- The sum over lanes, then over rows, of a block is the double sum of its entries. -/
theorem blockSum_apply (v : FVec Ideal S4096x128 .f32) (u : Fin 1) :
    blockSum (F := Ideal) v (ix1 u) = ∑ r : Fin 4096, ∑ q : Fin 128, v (ix2 r q) := by
  unfold blockSum
  refine (Ideal.multiReduction_add_single _ 0x00000000#32 reduces_S4096x1_S1 (.inl rfl) rfl (ix1 u)).trans ?_
  show ∑ r : Fin 4096, _ = _
  refine Finset.sum_congr rfl fun r _ => ?_
  have e1 : reduces_S4096x1_S1.lift (ix1 u) r = ix2 r u := by
    funext a; match a with | ⟨0, _⟩ => rfl | ⟨1, _⟩ => rfl
  rw [e1]
  refine (shapeCast_apply _ shapeCasts_S4096_S4096x1 (ix2 r u) (ix1 r) ?_).trans ?_
  · rw [Shape.rowMajor_val_two, Shape.rowMajor_val_one]
    show r.val = r.val * 1 + u.val
    have := u.isLt; omega
  refine (Ideal.multiReduction_add_single v 0x00000000#32 reduces_S4096x128_S4096 (.inl rfl) rfl (ix1 r)).trans ?_
  show ∑ q : Fin 128, _ = _
  refine Finset.sum_congr rfl fun q _ => ?_
  refine congrArg v ?_
  funext a; match a with | ⟨0, _⟩ => rfl | ⟨1, _⟩ => rfl

/-- A one-bit test of equality selects as the `if`. -/
theorem select_cmpi_eq {α : Type} (x k : BitVec 32) (a b : α) :
    Scalar.select (IntOp.cmpi .eq x k) a b = if x = k then a else b := by
  unfold Scalar.select IntOp.cmpi
  by_cases h : x = k
  · have hb : (x == k) = true := by rw [h]; exact beq_self_eq_true k
    rw [if_pos h, hb]; rfl
  · have hb : (x == k) = false := beq_eq_false_iff_ne.mpr h
    rw [if_neg h, hb]; rfl

/-- Adding an entry into lane `k`: lane `k` gets it, the other lanes get zero. -/
theorem addLane_apply (k : BitVec 32) (s : FVec Ideal S1 .f32) (prev : Vec Ideal S1x1x128 .f32) (u0 u1 : Fin 1) (l : Fin 128) :
    addLane (F := Ideal) k s prev (ix3 u0 u1 l)
      = prev (ix3 (0 : Fin 1) u1 l) + (if BitVec.ofNat 32 l.val = k then s (ix1 (0 : Fin 1)) else 0) := by
  unfold addLane
  refine (shapeCast_ab_1ab_apply _ shapeCasts_S1x128_S1x1x128 u0 u1 l).trans ?_
  rw [addf_apply]
  congr 1
  · exact shapeCast_1ab_ab_apply prev shapeCasts_S1x1x128_S1x128 u1 l
  · rw [select_apply]
    have hi : iota .tc S1x128 32 [1] iota_S1x128_d1_w32 (ix2 u1 l) = BitVec.ofNat 32 l.val := by
      show BitVec.ofNat 32 (0 * 128 + l.val) = _
      rw [Nat.zero_mul, Nat.zero_add]
    show Scalar.select (IntOp.cmpi .eq (iota .tc S1x128 32 [1] iota_S1x128_d1_w32 (ix2 u1 l)) k) _ _ = _
    rw [hi, select_cmpi_eq]
    congr 1
    · refine (broadcastTo_apply _ broadcasts_S1x1_S1x128 (ix2 u1 l) (ix2 (0 : Fin 1) (0 : Fin 1))
        (fun ax => match ax with | ⟨0, _⟩ => rfl | ⟨1, _⟩ => rfl)).trans ?_
      rw [shapeCast_self]
      exact shapeCast_a_1a_apply s shapeCasts_S1_S1x1 (0 : Fin 1) (0 : Fin 1)
    · show Ideal.ofBits .f32 0x00000000#32 = 0
      exact Ideal.ofBits_zero_f32

/-- The indicator of bin `k` at an entry is one or zero. -/
theorem indicator_apply (k : BitVec 32) (bins : IVec S4096x128 32) (j : S4096x128.Idx) :
    indicator (F := Ideal) k bins j = if bins j = k then 1 else 0 := by
  show ((((IntOp.cmpi .eq (bins j) k).setWidth 32).toInt : ℝ) : EReal) = _
  unfold IntOp.cmpi
  by_cases h : bins j = k
  · have hb : (bins j == k) = true := by rw [h]; exact beq_self_eq_true k
    have h1 : ((BitVec.ofBool true).setWidth 32).toInt = 1 := by decide
    rw [if_pos h, hb, h1]; simp
  · have hb : (bins j == k) = false := beq_eq_false_iff_ne.mpr h
    have h0 : ((BitVec.ofBool false).setWidth 32).toInt = 0 := by decide
    rw [if_neg h, hb, h0]; simp

/-- The masked loss at an entry is the loss or zero. -/
theorem masked_apply (k : BitVec 32) (bins : IVec S4096x128 32) (loss : FVec Ideal S4096x128 .f32) (j : S4096x128.Idx) :
    masked (F := Ideal) k bins loss j = if bins j = k then loss j else 0 := by
  show Scalar.select (IntOp.cmpi .eq (bins j) k) (loss j) (Ideal.ofBits .f32 0x00000000#32) = _
  rw [select_cmpi_eq, Ideal.ofBits_zero_f32]

/-- The bin word of an entry of the block. -/
theorem bins_apply (a b t : Vec Ideal S4096x128 .f32) (j : S4096x128.Idx) :
    k0_pay8 (F := Ideal) a b t j = Cert.Spec.binWord (a j) (b j) (t j) := by
  unfold k0_pay8 k0_pay6 k0_pay7
  simp only [shapeCast_self]
  show IntOp.minsi 9#32 (IntOp.maxsi 0#32 (Ideal.fptosi 32 (Ideal.liftRound Int.floor
    (Ideal.logistic ((Ideal.ofBits .f32 0x00000000#32 - (a j - b j)) * (Cert.Spec.two * t j - Cert.Spec.one)
      + Ideal.ofBits .f32 0x00000000#32) * Cert.Spec.ten)))) = _
  rw [Ideal.ofBits_zero_f32, zero_sub]
  rfl

/-- The loss of an entry of the block. -/
theorem loss_apply (a b t : Vec Ideal S4096x128 .f32) (j : S4096x128.Idx) :
    k0_pay9 (F := Ideal) a b t j = Cert.Spec.lossAt (a j) (b j) (t j) := by
  unfold k0_pay9 k0_pay6 k0_pay7
  simp only [shapeCast_self]
  show max (Ideal.ofBits .f32 0x00000000#32)
    ((Ideal.ofBits .f32 0x00000000#32 - t j) * (a j - b j) + Ideal.ofBits .f32 0x00000000#32) = _
  rw [Ideal.ofBits_zero_f32, zero_sub]
  rfl

end Cert.KernelIdeal.Bins

end
-- ==== Proof.PointAt.lean ====
/-
  One grid point's effect on lane k of the two rows, for k below ten: the count row gains the number of the block's
  pairs in bin k, the loss row gains the sum of their losses. (Each of the ten steps adds to one lane and adds zero to
  the others, and x + 0 = x on the extended reals.)
-/
import proofs.«172911_j51556787421840_2_alg».proof.Proof.StepsAt

noncomputable section

open scoped BigOperators

namespace Cert.KernelIdeal.Bins

open Cert.KernelIdeal Cert.KernelIdeal.Gen
open Idealize.ShloMosaic Idealize.SL.Sem Idealize.ShloMosaic.ValueIdx

/-- Lane `k` of a row, for a bin `k`. -/
abbrev lane (k : Fin 10) : Fin 128 := ⟨k.val, by omega⟩

/-- The number of pairs of a block in bin `k`, and the sum of their losses. -/
def blkCount (a b t : Vec Ideal S4096x128 .f32) (k : Fin 10) : EReal :=
  ∑ r : Fin 4096, ∑ q : Fin 128,
    if Cert.Spec.binOf (a (ix2 r q)) (b (ix2 r q)) (t (ix2 r q)) = k then (1 : EReal) else 0
def blkLoss (a b t : Vec Ideal S4096x128 .f32) (k : Fin 10) : EReal :=
  ∑ r : Fin 4096, ∑ q : Fin 128,
    if Cert.Spec.binOf (a (ix2 r q)) (b (ix2 r q)) (t (ix2 r q)) = k
      then Cert.Spec.lossAt (a (ix2 r q)) (b (ix2 r q)) (t (ix2 r q)) else 0

/-- The bin word is the word of `k` exactly when the bin is `k`. -/
theorem word_eq_iff (a b t : EReal) (k : Fin 10) :
    Cert.Spec.binWord a b t = BitVec.ofNat 32 k.val ↔ Cert.Spec.binOf a b t = k := by
  have hk := k.isLt
  constructor
  · intro h
    apply Fin.ext
    show (Cert.Spec.binWord a b t).toNat = k.val
    rw [h, BitVec.toNat_ofNat]; omega
  · intro h
    apply BitVec.eq_of_toNat_eq
    have h' : (Cert.Spec.binWord a b t).toNat = k.val := congrArg Fin.val h
    rw [h', BitVec.toNat_ofNat]; omega

/-- Ten additions, each into its own lane: lane `k` gains the `k`-th term, and nothing else. -/
theorem lane_chain (x : EReal) (S : Fin 10 → EReal) (k : Fin 10) :
    x + (if BitVec.ofNat 32 (lane k).val = 0#32 then S 0 else 0)
       + (if BitVec.ofNat 32 (lane k).val = 1#32 then S 1 else 0)
       + (if BitVec.ofNat 32 (lane k).val = 2#32 then S 2 else 0)
       + (if BitVec.ofNat 32 (lane k).val = 3#32 then S 3 else 0)
       + (if BitVec.ofNat 32 (lane k).val = 4#32 then S 4 else 0)
       + (if BitVec.ofNat 32 (lane k).val = 5#32 then S 5 else 0)
       + (if BitVec.ofNat 32 (lane k).val = 6#32 then S 6 else 0)
       + (if BitVec.ofNat 32 (lane k).val = 7#32 then S 7 else 0)
       + (if BitVec.ofNat 32 (lane k).val = 8#32 then S 8 else 0)
       + (if BitVec.ofNat 32 (lane k).val = 9#32 then S 9 else 0)
      = x + S k := by
  fin_cases k <;> simp

/-- The zeroed rows are zero. -/
theorem zeroCnt_apply (u0 u1 : Fin 1) (l : Fin 128) : k0_pay4 (F := Ideal) (ix3 u0 u1 l) = 0 := by
  unfold k0_pay4
  refine (shapeCast_ab_1ab_apply _ shapeCasts_S1x128_S1x1x128 u0 u1 l).trans ?_
  show Ideal.ofBits .f32 0x00000000#32 = 0
  exact Ideal.ofBits_zero_f32
theorem zeroLoss_apply (u0 u1 : Fin 1) (l : Fin 128) : k0_pay5 (F := Ideal) (ix3 u0 u1 l) = 0 := by
  unfold k0_pay5
  refine (shapeCast_ab_1ab_apply _ shapeCasts_S1x128_S1x1x128 u0 u1 l).trans ?_
  show Ideal.ofBits .f32 0x00000000#32 = 0
  exact Ideal.ofBits_zero_f32

/-- A point adds the block's count of bin `k` to lane `k` of the count row. -/
theorem pointCnt_lane (a b t : Vec Ideal S4096x128 .f32) (prev : Vec Ideal S1x1x128 .f32) (u0 u1 : Fin 1) (k : Fin 10) :
    pointCnt (F := Ideal) (k0_pay8 a b t) prev (ix3 u0 u1 (lane k))
      = prev (ix3 (0 : Fin 1) u1 (lane k)) + blkCount a b t k := by
  unfold pointCnt stepCnt
  simp only [addLane_apply]
  refine (lane_chain _ (fun j => blockSum (indicator (F := Ideal) (BitVec.ofNat 32 j.val) (k0_pay8 a b t)) (ix1 (0 : Fin 1))) k).trans ?_
  refine congrArg (fun z : EReal => prev (ix3 (0 : Fin 1) u1 (lane k)) + z) ?_
  show blockSum (indicator (F := Ideal) (BitVec.ofNat 32 k.val) (k0_pay8 a b t)) (ix1 (0 : Fin 1)) = _
  rw [blockSum_apply]; unfold blkCount
  refine Finset.sum_congr rfl fun r _ => Finset.sum_congr rfl fun q _ => ?_
  rw [indicator_apply, bins_apply]
  exact if_congr (word_eq_iff _ _ _ k) rfl rfl

/-- A point adds the block's loss of bin `k` to lane `k` of the loss row. -/
theorem pointLoss_lane (a b t : Vec Ideal S4096x128 .f32) (prev : Vec Ideal S1x1x128 .f32) (u0 u1 : Fin 1) (k : Fin 10) :
    pointLoss (F := Ideal) (k0_pay8 a b t) (k0_pay9 a b t) prev (ix3 u0 u1 (lane k))
      = prev (ix3 (0 : Fin 1) u1 (lane k)) + blkLoss a b t k := by
  unfold pointLoss stepLoss
  simp only [addLane_apply]
  refine (lane_chain _ (fun j => blockSum (masked (F := Ideal) (BitVec.ofNat 32 j.val) (k0_pay8 a b t) (k0_pay9 a b t)) (ix1 (0 : Fin 1))) k).trans ?_
  refine congrArg (fun z : EReal => prev (ix3 (0 : Fin 1) u1 (lane k)) + z) ?_
  show blockSum (masked (F := Ideal) (BitVec.ofNat 32 k.val) (k0_pay8 a b t) (k0_pay9 a b t)) (ix1 (0 : Fin 1)) = _
  rw [blockSum_apply]; unfold blkLoss
  refine Finset.sum_congr rfl fun r _ => Finset.sum_congr rfl fun q _ => ?_
  rw [masked_apply, bins_apply, loss_apply]
  exact if_congr (word_eq_iff _ _ _ k) rfl rfl

end Cert.KernelIdeal.Bins

end
-- ==== Proof.Accum.lean ====
/-
  The two rows after each grid point, lane k (k below ten): the sum, over the points of the current partition so far,
  of the blocks' counts of bin k (count row) and of the blocks' losses of bin k (loss row). The first point of a
  partition starts from the zeroed row, every later point from what the point before left: an induction on the point.
-/
import proofs.«172911_j51556787421840_2_alg».proof.Proof.Pieces
import proofs.«172911_j51556787421840_2_alg».proof.Proof.PointAt

set_option maxRecDepth 16384

noncomputable section

open scoped BigOperators

namespace Cert.KernelIdeal.Bins

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Point `n`'s block: its count and its loss of bin `k` (zero past the grid). -/
def ptCount (c : Dev nD) (n : ℕ) (k : Fin 10) : EReal :=
  if h : n < cfg0.N then blkCount (iblk m c 0 ⟨n, h⟩) (iblk m c 1 ⟨n, h⟩) (iblk m c 2 ⟨n, h⟩) k else 0
def ptLoss (c : Dev nD) (n : ℕ) (k : Fin 10) : EReal :=
  if h : n < cfg0.N then blkLoss (iblk m c 0 ⟨n, h⟩) (iblk m c 1 ⟨n, h⟩) (iblk m c 2 ⟨n, h⟩) k else 0

/-- The count row after point `n`, lane `k`. -/
theorem acc_cnt (c : Dev nD) (k : Fin 10) : ∀ (n : ℕ) (hn : n < cfg0.N),
    (outsAt0 (F := Ideal) m c n hn).1 (ix3 (0 : Fin 1) (0 : Fin 1) (lane k))
      = ∑ j ∈ Finset.Icc (n - n % 16) n, ptCount m c j k
  | 0, hn => by
    rw [outsAt0_A m c ⟨0, hn⟩ rfl]
    dsimp only
    rw [out_A_3]
    refine (pointCnt_lane (iblk m c 0 ⟨0, hn⟩) (iblk m c 1 ⟨0, hn⟩) (iblk m c 2 ⟨0, hn⟩) _ 0 0 k).trans ?_
    rw [zeroCnt_apply, zero_add]
    show _ = ∑ j ∈ Finset.Icc 0 0, ptCount m c j k
    rw [Finset.Icc_self, Finset.sum_singleton]
    unfold ptCount; rw [dif_pos hn]
  | n + 1, hn => by
    by_cases h0 : (n + 1) % 16 = 0
    · rw [outsAt0_A m c ⟨n + 1, hn⟩ h0]
      dsimp only
      rw [out_A_3]
      refine (pointCnt_lane (iblk m c 0 ⟨n + 1, hn⟩) (iblk m c 1 ⟨n + 1, hn⟩) (iblk m c 2 ⟨n + 1, hn⟩) _ 0 0 k).trans ?_
      rw [zeroCnt_apply, zero_add]
      have e : n + 1 - (n + 1) % 16 = n + 1 := by omega
      rw [e, Finset.Icc_self, Finset.sum_singleton]
      unfold ptCount; rw [dif_pos hn]
    · rw [outsAt0_B m c ⟨n + 1, hn⟩ h0]
      dsimp only
      rw [out_B_3]
      refine (pointCnt_lane (iblk m c 0 ⟨n + 1, hn⟩) (iblk m c 1 ⟨n + 1, hn⟩) (iblk m c 2 ⟨n + 1, hn⟩) _ 0 0 k).trans ?_
      have ih := acc_cnt c k n (Nat.lt_of_succ_lt hn)
      have e : n + 1 - (n + 1) % 16 = n - n % 16 := by omega
      rw [e, Finset.sum_Icc_succ_top (by omega)]
      refine congrArg₂ (· + ·) ?_ ?_
      · exact ih
      · unfold ptCount; rw [dif_pos hn]

/-- The loss row after point `n`, lane `k`. -/
theorem acc_loss (c : Dev nD) (k : Fin 10) : ∀ (n : ℕ) (hn : n < cfg0.N),
    (outsAt0 (F := Ideal) m c n hn).2 (ix3 (0 : Fin 1) (0 : Fin 1) (lane k))
      = ∑ j ∈ Finset.Icc (n - n % 16) n, ptLoss m c j k
  | 0, hn => by
    rw [outsAt0_A m c ⟨0, hn⟩ rfl]
    dsimp only
    rw [out_A_4]
    refine (pointLoss_lane (iblk m c 0 ⟨0, hn⟩) (iblk m c 1 ⟨0, hn⟩) (iblk m c 2 ⟨0, hn⟩) _ 0 0 k).trans ?_
    rw [zeroLoss_apply, zero_add]
    show _ = ∑ j ∈ Finset.Icc 0 0, ptLoss m c j k
    rw [Finset.Icc_self, Finset.sum_singleton]
    unfold ptLoss; rw [dif_pos hn]
  | n + 1, hn => by
    by_cases h0 : (n + 1) % 16 = 0
    · rw [outsAt0_A m c ⟨n + 1, hn⟩ h0]
      dsimp only
      rw [out_A_4]
      refine (pointLoss_lane (iblk m c 0 ⟨n + 1, hn⟩) (iblk m c 1 ⟨n + 1, hn⟩) (iblk m c 2 ⟨n + 1, hn⟩) _ 0 0 k).trans ?_
      rw [zeroLoss_apply, zero_add]
      have e : n + 1 - (n + 1) % 16 = n + 1 := by omega
      rw [e, Finset.Icc_self, Finset.sum_singleton]
      unfold ptLoss; rw [dif_pos hn]
    · rw [outsAt0_B m c ⟨n + 1, hn⟩ h0]
      dsimp only
      rw [out_B_4]
      refine (pointLoss_lane (iblk m c 0 ⟨n + 1, hn⟩) (iblk m c 1 ⟨n + 1, hn⟩) (iblk m c 2 ⟨n + 1, hn⟩) _ 0 0 k).trans ?_
      have ih := acc_loss c k n (Nat.lt_of_succ_lt hn)
      have e : n + 1 - (n + 1) % 16 = n - n % 16 := by omega
      rw [e, Finset.sum_Icc_succ_top (by omega)]
      refine congrArg₂ (· + ·) ?_ ?_
      · exact ih
      · unfold ptLoss; rw [dif_pos hn]

end Cert.KernelIdeal.Bins

end
-- ==== Proof.Final.lean ====
/-
  The two accumulator arrays after the region. Each has one row of 128 lanes per partition; a partition's row is
  written back once, after the partition's last point, and holds, in lane k below ten, the sum over the partition's
  sixteen blocks of the blocks' counts (or losses) of bin k.
-/
import proofs.«172911_j51556787421840_2_alg».proof.Proof.Accum

set_option maxRecDepth 16384

noncomputable section

open scoped BigOperators

namespace Cert.KernelIdeal.Bins

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The rows after a point depend on the point's number only. -/
theorem outs_congr (c : Dev nD) (n n' : ℕ) (h : n < cfg0.N) (h' : n' < cfg0.N) (e : n = n') :
    outsAt0 (F := Ideal) m c n h = outsAt0 (F := Ideal) m c n' h' := by
  subst e; rfl

/-- Partition `p`'s count row after its last point. -/
def lastCnt (c : Dev nD) (p : ℕ) : Vec Ideal S1x1x128 .f32 :=
  if h : 16 * p + 15 < cfg0.N then (outsAt0 (F := Ideal) m c (16 * p + 15) h).1 else fun _ => 0

/-- The count array after the region: partition `p`'s row is what its last point left. -/
def cntArr (c : Dev nD) : Buf (Elt Ideal) ((c : Thread nD τ).loc main_v3_0) :=
  fun (i : S2x1x128.Idx) => lastCnt m c (i 0).val (ix3 (0 : Fin 1) (i 1) (i 2))

/-- The index maps of window 3, decided over the grid: the block of point `t` is partition `t / 16`'s row. -/
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- What a partition's last point writes back is that partition's row of the array. -/
theorem flushed3_eq (c : Dev nD) (t : Fin cfg0.N) (hf : (cfg0.win 3).flush t = true) :
    (dats m 0 c).flushed 3 t = ((cfg0.win 3).blk t).view.read (Elt Ideal) (cntArr m c) := by
  have hN : cfg0.N = 32 := N_0
  have ht := t.isLt
  have h15 : t.val % 16 = 15 := (flush0_3 t).mp hf
  obtain ⟨e0, e1, e2⟩ := idx3 t
  show (cfg0.win 3).cut (grid0.coords t) ((dats m 0 c).after 3 t) = _
  rw [after0_3]
  funext y
  rw [View.read_apply]
  have hy0 : (y 0).val < 1 := (y 0).isLt
  have hy1 : (y 1).val < 1 := (y 1).isLt
  have hy2 : (y 2).val < 128 := (y 2).isLt
  have hp : (((cfg0.win 3).blk t).view.emb y (0 : Fin 3)).val = t.val / 16 := by
    show win0_3.index t (0 : Fin 3) * 1 + 1 * (y 0).val = _
    omega
  have hn : 16 * (t.val / 16) + 15 = t.val := by omega
  show (outsAt0 (F := Ideal) m c t.val t.isLt).1 y
    = lastCnt m c (((cfg0.win 3).blk t).view.emb y (0 : Fin 3)).val
        (ix3 (0 : Fin 1) (((cfg0.win 3).blk t).view.emb y (1 : Fin 3)) (((cfg0.win 3).blk t).view.emb y (2 : Fin 3)))
  rw [hp]
  unfold lastCnt
  rw [dif_pos (by omega)]
  rw [outs_congr m c _ _ _ t.isLt hn]
  refine congrArg _ ?_
  funext a
  apply Fin.ext
  match a with
  | ⟨0, _⟩ => show (y 0).val = 0; omega
  | ⟨1, _⟩ => show (y 1).val = win0_3.index t (1 : Fin 3) * 1 + 1 * (y 1).val; omega
  | ⟨2, _⟩ => show (y 2).val = win0_3.index t (2 : Fin 3) * 128 + 1 * (y 2).val; omega

/-- Every entry of the array is in the row of its partition's last point. -/
theorem cover3 (c : Dev nD) (i : S2x1x128.Idx) :
    ∃ t : Fin cfg0.N, (cfg0.win 3).flush t = true ∧ i ∈ ((cfg0.win 3).blk t).view.set := by
  have hN : cfg0.N = 32 := N_0
  have hi0 : (i 0).val < 2 := (i 0).isLt
  have hi1 : (i 1).val < 1 := (i 1).isLt
  have hi2 : (i 2).val < 128 := (i 2).isLt
  have hlt : 16 * (i 0).val + 15 < cfg0.N := by omega
  refine ⟨⟨16 * (i 0).val + 15, hlt⟩, (flush0_3 _).mpr (by show (16 * (i 0).val + 15) % 16 = 15; omega), ?_⟩
  obtain ⟨e0, e1, e2⟩ := idx3 ⟨16 * (i 0).val + 15, hlt⟩
  have e0' : win0_3.index ⟨16 * (i 0).val + 15, hlt⟩ (0 : Fin 3) = (16 * (i 0).val + 15) / 16 := e0
  show i ∈ ((View.whole main_v3_0).slice (win0_3.rect ⟨16 * (i 0).val + 15, hlt⟩)).set
  rw [View.set_slice_whole, Rect.mem_set_unit]
  intro a
  match a with
  | ⟨0, _⟩ =>
    show win0_3.index ⟨16 * (i 0).val + 15, hlt⟩ (0 : Fin 3) * 1 ≤ (i 0).val
      ∧ (i 0).val < win0_3.index ⟨16 * (i 0).val + 15, hlt⟩ (0 : Fin 3) * 1 + 1
    omega
  | ⟨1, _⟩ =>
    show win0_3.index ⟨16 * (i 0).val + 15, hlt⟩ (1 : Fin 3) * 1 ≤ (i 1).val
      ∧ (i 1).val < win0_3.index ⟨16 * (i 0).val + 15, hlt⟩ (1 : Fin 3) * 1 + 1
    omega
  | ⟨2, _⟩ =>
    show win0_3.index ⟨16 * (i 0).val + 15, hlt⟩ (2 : Fin 3) * 128 ≤ (i 2).val
      ∧ (i 2).val < win0_3.index ⟨16 * (i 0).val + 15, hlt⟩ (2 : Fin 3) * 128 + 128
    omega

/-- So the array ends as stated. -/
theorem final3 (c : Dev nD) : (dats m 0 c).arrAt 3 cfg0.N = cntArr m c :=
  (dats m 0 c).arrAt_eq_of_cover 3 (cntArr m c) (flushed3_eq m c) (cover3 c)

/-- Lane `k` of partition `p`'s row: the partition's sixteen blocks' counts of bin `k`. -/
theorem cntArr_lane (c : Dev nD) (p : Fin 2) (k : Fin 10) :
    cntArr m c (ix3 p (0 : Fin 1) (lane k)) = ∑ j ∈ Finset.Icc (16 * p.val) (16 * p.val + 15), ptCount m c j k := by
  have hN : cfg0.N = 32 := N_0
  have hp := p.isLt
  show lastCnt m c p.val (ix3 (0 : Fin 1) (0 : Fin 1) (lane k)) = _
  unfold lastCnt
  rw [dif_pos (by omega)]
  rw [acc_cnt m c k (16 * p.val + 15) (by omega)]
  have e : 16 * p.val + 15 - (16 * p.val + 15) % 16 = 16 * p.val := by omega
  rw [e]

/-- Partition `p`'s loss row after its last point. -/
def lastLoss (c : Dev nD) (p : ℕ) : Vec Ideal S1x1x128 .f32 :=
  if h : 16 * p + 15 < cfg0.N then (outsAt0 (F := Ideal) m c (16 * p + 15) h).2 else fun _ => 0

/-- The loss array after the region: partition `p`'s row is what its last point left. -/
def lossArr (c : Dev nD) : Buf (Elt Ideal) ((c : Thread nD τ).loc main_v3_1) :=
  fun (i : S2x1x128.Idx) => lastLoss m c (i 0).val (ix3 (0 : Fin 1) (i 1) (i 2))

/-- The index maps of window 4, decided over the grid: the block of point `t` is partition `t / 16`'s row. -/
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- What a partition's last point writes back is that partition's row of the array. -/
theorem flushed4_eq (c : Dev nD) (t : Fin cfg0.N) (hf : (cfg0.win 4).flush t = true) :
    (dats m 0 c).flushed 4 t = ((cfg0.win 4).blk t).view.read (Elt Ideal) (lossArr m c) := by
  have hN : cfg0.N = 32 := N_0
  have ht := t.isLt
  have h15 : t.val % 16 = 15 := (flush0_4 t).mp hf
  obtain ⟨e0, e1, e2⟩ := idx4 t
  show (cfg0.win 4).cut (grid0.coords t) ((dats m 0 c).after 4 t) = _
  rw [after0_4]
  funext y
  rw [View.read_apply]
  have hy0 : (y 0).val < 1 := (y 0).isLt
  have hy1 : (y 1).val < 1 := (y 1).isLt
  have hy2 : (y 2).val < 128 := (y 2).isLt
  have hp : (((cfg0.win 4).blk t).view.emb y (0 : Fin 3)).val = t.val / 16 := by
    show win0_4.index t (0 : Fin 3) * 1 + 1 * (y 0).val = _
    omega
  have hn : 16 * (t.val / 16) + 15 = t.val := by omega
  show (outsAt0 (F := Ideal) m c t.val t.isLt).2 y
    = lastLoss m c (((cfg0.win 4).blk t).view.emb y (0 : Fin 3)).val
        (ix3 (0 : Fin 1) (((cfg0.win 4).blk t).view.emb y (1 : Fin 3)) (((cfg0.win 4).blk t).view.emb y (2 : Fin 3)))
  rw [hp]
  unfold lastLoss
  rw [dif_pos (by omega)]
  rw [outs_congr m c _ _ _ t.isLt hn]
  refine congrArg _ ?_
  funext a
  apply Fin.ext
  match a with
  | ⟨0, _⟩ => show (y 0).val = 0; omega
  | ⟨1, _⟩ => show (y 1).val = win0_4.index t (1 : Fin 3) * 1 + 1 * (y 1).val; omega
  | ⟨2, _⟩ => show (y 2).val = win0_4.index t (2 : Fin 3) * 128 + 1 * (y 2).val; omega

/-- Every entry of the array is in the row of its partition's last point. -/
theorem cover4 (c : Dev nD) (i : S2x1x128.Idx) :
    ∃ t : Fin cfg0.N, (cfg0.win 4).flush t = true ∧ i ∈ ((cfg0.win 4).blk t).view.set := by
  have hN : cfg0.N = 32 := N_0
  have hi0 : (i 0).val < 2 := (i 0).isLt
  have hi1 : (i 1).val < 1 := (i 1).isLt
  have hi2 : (i 2).val < 128 := (i 2).isLt
  have hlt : 16 * (i 0).val + 15 < cfg0.N := by omega
  refine ⟨⟨16 * (i 0).val + 15, hlt⟩, (flush0_4 _).mpr (by show (16 * (i 0).val + 15) % 16 = 15; omega), ?_⟩
  obtain ⟨e0, e1, e2⟩ := idx4 ⟨16 * (i 0).val + 15, hlt⟩
  have e0' : win0_4.index ⟨16 * (i 0).val + 15, hlt⟩ (0 : Fin 3) = (16 * (i 0).val + 15) / 16 := e0
  show i ∈ ((View.whole main_v3_1).slice (win0_4.rect ⟨16 * (i 0).val + 15, hlt⟩)).set
  rw [View.set_slice_whole, Rect.mem_set_unit]
  intro a
  match a with
  | ⟨0, _⟩ =>
    show win0_4.index ⟨16 * (i 0).val + 15, hlt⟩ (0 : Fin 3) * 1 ≤ (i 0).val
      ∧ (i 0).val < win0_4.index ⟨16 * (i 0).val + 15, hlt⟩ (0 : Fin 3) * 1 + 1
    omega
  | ⟨1, _⟩ =>
    show win0_4.index ⟨16 * (i 0).val + 15, hlt⟩ (1 : Fin 3) * 1 ≤ (i 1).val
      ∧ (i 1).val < win0_4.index ⟨16 * (i 0).val + 15, hlt⟩ (1 : Fin 3) * 1 + 1
    omega
  | ⟨2, _⟩ =>
    show win0_4.index ⟨16 * (i 0).val + 15, hlt⟩ (2 : Fin 3) * 128 ≤ (i 2).val
      ∧ (i 2).val < win0_4.index ⟨16 * (i 0).val + 15, hlt⟩ (2 : Fin 3) * 128 + 128
    omega

/-- So the array ends as stated. -/
theorem final4 (c : Dev nD) : (dats m 0 c).arrAt 4 cfg0.N = lossArr m c :=
  (dats m 0 c).arrAt_eq_of_cover 4 (lossArr m c) (flushed4_eq m c) (cover4 c)

/-- Lane `k` of partition `p`'s row: the partition's sixteen blocks' losses of bin `k`. -/
theorem lossArr_lane (c : Dev nD) (p : Fin 2) (k : Fin 10) :
    lossArr m c (ix3 p (0 : Fin 1) (lane k)) = ∑ j ∈ Finset.Icc (16 * p.val) (16 * p.val + 15), ptLoss m c j k := by
  have hN : cfg0.N = 32 := N_0
  have hp := p.isLt
  show lastLoss m c p.val (ix3 (0 : Fin 1) (0 : Fin 1) (lane k)) = _
  unfold lastLoss
  rw [dif_pos (by omega)]
  rw [acc_loss m c k (16 * p.val + 15) (by omega)]
  have e : 16 * p.val + 15 - (16 * p.val + 15) % 16 = 16 * p.val := by omega
  rw [e]

end Cert.KernelIdeal.Bins

end
-- ==== Proof.Reindex.lean ====
/-
  The flat arrays cut into blocks: entry q of row r of block t of the 32 blocks of 4096 rows of 128 lanes is entry
  (t·4096 + r)·128 + q of the flat array, and this is a bijection onto the 2^24 flat indices. So a sum over blocks,
  rows and lanes is the sum over the flat array.
-/
import proofs.«172911_j51556787421840_2_alg».proof.Proof.Spec
import Idealize.ShloMosaic.Lib.ValueIdx

noncomputable section

open scoped BigOperators

namespace Cert.Spec

open Idealize.ShloMosaic Idealize.ShloMosaic.ValueIdx

/-- The flat index of entry `(r, q)` of block `t`. -/
def flat (t : Fin 32) (r : Fin 4096) (q : Fin 128) : SN.Idx :=
  ix1 (⟨(t.val * 4096 + r.val) * 128 + q.val, by have := t.isLt; have := r.isLt; have := q.isLt; omega⟩ : Fin 16777216)

/-- Blocks, rows and lanes against flat indices. -/
def blockEquiv : Fin 32 × Fin 4096 × Fin 128 ≃ SN.Idx where
  toFun x := flat x.1 x.2.1 x.2.2
  invFun n :=
    have h : (n 0).val < 16777216 := (n 0).isLt
    (⟨(n 0).val / 524288, by omega⟩, ⟨(n 0).val / 128 % 4096, by omega⟩, ⟨(n 0).val % 128, by omega⟩)
  left_inv x := by
    obtain ⟨t, r, q⟩ := x
    have ht := t.isLt; have hr := r.isLt; have hq := q.isLt
    refine Prod.ext (Fin.ext ?_) (Prod.ext (Fin.ext ?_) (Fin.ext ?_))
    · show ((t.val * 4096 + r.val) * 128 + q.val) / 524288 = t.val; omega
    · show ((t.val * 4096 + r.val) * 128 + q.val) / 128 % 4096 = r.val; omega
    · show ((t.val * 4096 + r.val) * 128 + q.val) % 128 = q.val; omega
  right_inv n := by
    have h : (n 0).val < 16777216 := (n 0).isLt
    funext a
    obtain rfl : a = 0 := Subsingleton.elim _ _
    refine Fin.ext ?_
    show ((n 0).val / 524288 * 4096 + (n 0).val / 128 % 4096) * 128 + (n 0).val % 128 = (n 0).val
    omega

/-- A sum over blocks, rows and lanes is the sum over the flat array. -/
theorem sum_blocks (g : SN.Idx → EReal) :
    ∑ t : Fin 32, ∑ r : Fin 4096, ∑ q : Fin 128, g (flat t r q) = ∑ n : SN.Idx, g n := by
  rw [← Equiv.sum_comp blockEquiv g]
  rw [Fintype.sum_prod_type]
  refine Finset.sum_congr rfl fun t _ => ?_
  rw [Fintype.sum_prod_type]
  rfl

end Cert.Spec

end
-- ==== Proof.Totals.lean ====
/-
  From blocks back to the flat arrays. The three arguments reach the region reshaped to 131072 rows of 128 lanes, and
  point t reads rows t·4096 … t·4096 + 4095: so entry (r, q) of its block is the flat entry (t·4096 + r)·128 + q, the
  32 points' blocks partition the flat arrays, and the blocks' counts and losses of a bin sum to the specification's
  count and loss of that bin.
-/
import proofs.«172911_j51556787421840_2_alg».proof.Proof.Final
import proofs.«172911_j51556787421840_2_alg».proof.Proof.Reindex
import Idealize.ShloMosaic.Lib.StableHlo.Run

set_option maxRecDepth 16384

noncomputable section

open scoped BigOperators

namespace Cert.KernelIdeal.Bins

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ)

/-- A grid point as a number below 32. -/
def pt32 (t : Fin cfg0.N) : Fin 32 := ⟨t.val, lt_of_lt_of_eq t.isLt N_0⟩

/-- The region finds the reshaped argument 0: the flat array, row-major. -/
theorem V_v0 (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl

/-- The index map of window 0, decided over the grid: point `t` reads block row `t`. -/
theorem idxIn0 : ∀ t : Fin cfg0.N, win0_0.index t (0 : Fin 2) = t.val ∧ win0_0.index t (1 : Fin 2) = 0 :=
  (by decide +kernel : ∀ t : Fin grid0.N, _)

/-- Entry `(r, q)` of point `t`'s block of argument 0 is the flat array's entry `(t·4096 + r)·128 + q`. -/
theorem iblk0_apply (c : Dev nD) (t : Fin cfg0.N) (r : Fin 4096) (q : Fin 128) :
    (iblk m c 0 t : Vec Ideal S4096x128 .f32) (ix2 r q) = m ((c : Thread nD τ).loc main_arg0) (Cert.Spec.flat (pt32 t) r q) := by
  obtain ⟨e0, e1⟩ := idxIn0 t
  unfold iblk
  rw [View.read_apply]
  show V m c main_v0 (((cfg0.win 0).blk t).view.emb (ix2 r q)) = _
  rw [V_v0]
  refine shapeCast_apply _ shapeCasts_S16777216_S131072x128 _ (Cert.Spec.flat (pt32 t) r q) ?_
  rw [Shape.rowMajor_val_two, Shape.rowMajor_val_one]
  show (t.val * 4096 + r.val) * 128 + q.val
    = (win0_0.index t (0 : Fin 2) * 4096 + 1 * r.val) * 128 + (win0_0.index t (1 : Fin 2) * 128 + 1 * q.val)
  rw [e0, e1]; omega

/-- The region finds the reshaped argument 1: the flat array, row-major. -/
theorem V_v1 (c : Dev nD) : (V m c main_v1 : S131072x128.Idx → EReal)
    = shapeCast S131072x128 (m ((c : Thread nD τ).loc main_arg1)) shapeCasts_S16777216_S131072x128 := by
  show StableHlo.after hostOps0 (fun b => m (c, b)) (Proc.devRef .tc main_v1) = _
  after_results
  rfl

/-- The index map of window 1, decided over the grid: point `t` reads block row `t`. -/
theorem idxIn1 : ∀ t : Fin cfg0.N, win0_1.index t (0 : Fin 2) = t.val ∧ win0_1.index t (1 : Fin 2) = 0 :=
  (by decide +kernel : ∀ t : Fin grid0.N, _)

/-- Entry `(r, q)` of point `t`'s block of argument 1 is the flat array's entry `(t·4096 + r)·128 + q`. -/
theorem iblk1_apply (c : Dev nD) (t : Fin cfg0.N) (r : Fin 4096) (q : Fin 128) :
    (iblk m c 1 t : Vec Ideal S4096x128 .f32) (ix2 r q) = m ((c : Thread nD τ).loc main_arg1) (Cert.Spec.flat (pt32 t) r q) := by
  obtain ⟨e0, e1⟩ := idxIn1 t
  unfold iblk
  rw [View.read_apply]
  show V m c main_v1 (((cfg0.win 1).blk t).view.emb (ix2 r q)) = _
  rw [V_v1]
  refine shapeCast_apply _ shapeCasts_S16777216_S131072x128 _ (Cert.Spec.flat (pt32 t) r q) ?_
  rw [Shape.rowMajor_val_two, Shape.rowMajor_val_one]
  show (t.val * 4096 + r.val) * 128 + q.val
    = (win0_1.index t (0 : Fin 2) * 4096 + 1 * r.val) * 128 + (win0_1.index t (1 : Fin 2) * 128 + 1 * q.val)
  rw [e0, e1]; omega

/-- The region finds the reshaped argument 2: the flat array, row-major. -/
theorem V_v2 (c : Dev nD) : (V m c main_v2 : S131072x128.Idx → EReal)
    = shapeCast S131072x128 (m ((c : Thread nD τ).loc main_arg2)) shapeCasts_S16777216_S131072x128 := by
  show StableHlo.after hostOps0 (fun b => m (c, b)) (Proc.devRef .tc main_v2) = _
  after_results
  rfl

/-- The index map of window 2, decided over the grid: point `t` reads block row `t`. -/
theorem idxIn2 : ∀ t : Fin cfg0.N, win0_2.index t (0 : Fin 2) = t.val ∧ win0_2.index t (1 : Fin 2) = 0 :=
  (by decide +kernel : ∀ t : Fin grid0.N, _)

/-- Entry `(r, q)` of point `t`'s block of argument 2 is the flat array's entry `(t·4096 + r)·128 + q`. -/
theorem iblk2_apply (c : Dev nD) (t : Fin cfg0.N) (r : Fin 4096) (q : Fin 128) :
    (iblk m c 2 t : Vec Ideal S4096x128 .f32) (ix2 r q) = m ((c : Thread nD τ).loc main_arg2) (Cert.Spec.flat (pt32 t) r q) := by
  obtain ⟨e0, e1⟩ := idxIn2 t
  unfold iblk
  rw [View.read_apply]
  show V m c main_v2 (((cfg0.win 2).blk t).view.emb (ix2 r q)) = _
  rw [V_v2]
  refine shapeCast_apply _ shapeCasts_S16777216_S131072x128 _ (Cert.Spec.flat (pt32 t) r q) ?_
  rw [Shape.rowMajor_val_two, Shape.rowMajor_val_one]
  show (t.val * 4096 + r.val) * 128 + q.val
    = (win0_2.index t (0 : Fin 2) * 4096 + 1 * r.val) * 128 + (win0_2.index t (1 : Fin 2) * 128 + 1 * q.val)
  rw [e0, e1]; omega

/-- The 32 blocks' counts of bin `k` sum to the count of bin `k`. -/
theorem total_count (c : Dev nD) (k : Fin 10) :
    ∑ j ∈ Finset.range 32, ptCount m c j k
      = Cert.Spec.count (m ((c : Thread nD τ).loc main_arg0)) (m ((c : Thread nD τ).loc main_arg1)) (m ((c : Thread nD τ).loc main_arg2)) k := by
  rw [Finset.sum_range]
  unfold Cert.Spec.count
  rw [← Cert.Spec.sum_blocks]
  refine Finset.sum_congr rfl fun t _ => ?_
  have ht : t.val < cfg0.N := lt_of_lt_of_eq t.isLt N_0.symm
  unfold ptCount
  rw [dif_pos ht]
  unfold blkCount
  refine Finset.sum_congr rfl fun r _ => Finset.sum_congr rfl fun q _ => ?_
  rw [iblk0_apply, iblk1_apply, iblk2_apply]
  rfl

/-- The 32 blocks' losses of bin `k` sum to the loss of bin `k`. -/
theorem total_loss (c : Dev nD) (k : Fin 10) :
    ∑ j ∈ Finset.range 32, ptLoss m c j k
      = Cert.Spec.binLoss (m ((c : Thread nD τ).loc main_arg0)) (m ((c : Thread nD τ).loc main_arg1)) (m ((c : Thread nD τ).loc main_arg2)) k := by
  rw [Finset.sum_range]
  unfold Cert.Spec.binLoss
  rw [← Cert.Spec.sum_blocks]
  refine Finset.sum_congr rfl fun t _ => ?_
  have ht : t.val < cfg0.N := lt_of_lt_of_eq t.isLt N_0.symm
  unfold ptLoss
  rw [dif_pos ht]
  unfold blkLoss
  refine Finset.sum_congr rfl fun r _ => Finset.sum_congr rfl fun q _ => ?_
  rw [iblk0_apply, iblk1_apply, iblk2_apply]
  rfl

/-- The two partitions' sums are the sum over all 32 points. -/
theorem two_partitions (f : ℕ → EReal) :
    ∑ p : Fin 2, ∑ j ∈ Finset.Icc (16 * p.val) (16 * p.val + 15), f j = ∑ j ∈ Finset.range 32, f j := by
  rw [Fin.sum_univ_two]
  have h0 : Finset.Icc (16 * (0 : Fin 2).val) (16 * (0 : Fin 2).val + 15) = Finset.Ico 0 16 := by decide
  have h1 : Finset.Icc (16 * (1 : Fin 2).val) (16 * (1 : Fin 2).val + 15) = Finset.Ico 16 32 := by decide
  rw [h0, h1, Finset.range_eq_Ico, Finset.sum_Ico_consecutive f (by omega) (by omega)]

end Cert.KernelIdeal.Bins

end
-- ==== Proof.Tail.lean ====
/-
  The host lines after the region. They take lanes 0…9 of the two partitions' rows of each accumulator array, add the
  two partitions, raise each count to at least one and to the power -3/4, multiply by the bin's loss, add the ten
  products, and divide by 2^24: the bin-by-bin form of the result.
-/
import proofs.«172911_j51556787421840_2_alg».proof.Proof.Totals

set_option maxRecDepth 16384

noncomputable section

open scoped BigOperators

namespace Cert.KernelIdeal.Bins

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

/-- The host lines after the region, as one function of the two accumulator arrays: lanes 0…9 of the two partitions'
    rows are added, the counts are raised to at least one and to the power -3/4, multiplied with the losses, summed,
    and divided by 2^24. -/
def tail {F : FTy → Type} [FloatOps F] (C L : (⟨S2x1x128, .f32⟩ : BufTy).Contents (Elt F)) :
    (⟨S_, .f32⟩ : BufTy).Contents (Elt F) :=
  Host.divf
    (Host.reduceAdd
      (mulf
        (Host.powf
          (maximumf
            (Host.reduceAdd
              (shapeCast S2x10 (extractStridedSlice S2x1x10 ![0, 0, 0] C slices_S2x1x128_S2x1x10_0_0_0) shapeCasts_S2x1x10_S2x10)
              (constant S_ .f32 0x00000000#32) reducesTo_S2x10_S10_d0 h_S_)
            (broadcastInDim S10 ![] bcast_S_S10 (constant S_ .f32 0x3F800000#32)))
          (broadcastInDim S10 ![] bcast_S_S10 (constant S_ .f32 0xBF400000#32)))
        (Host.reduceAdd
          (shapeCast S2x10 (extractStridedSlice S2x1x10 ![0, 0, 0] L slices_S2x1x128_S2x1x10_0_0_0) shapeCasts_S2x1x10_S2x10)
          (constant S_ .f32 0x00000000#32) reducesTo_S2x10_S10_d0 h_S_))
      (constant S_ .f32 0x00000000#32) reducesTo_S10_S_d0 h_S_)
    (constant S_ .f32 0x4B800000#32)

/-- Lanes 0…9 of an accumulator array, the two partitions added: entry `k`. -/
theorem partitions_apply (X : S2x1x128.Idx → EReal) (k : Fin 10) :
    Host.reduceAdd (F := Ideal)
        (shapeCast S2x10 (extractStridedSlice S2x1x10 ![0, 0, 0] X slices_S2x1x128_S2x1x10_0_0_0) shapeCasts_S2x1x10_S2x10)
        (constant S_ .f32 0x00000000#32) reducesTo_S2x10_S10_d0 h_S_ (ix1 k)
      = 0 + ∑ p : Fin 2, X (ix3 p (0 : Fin 1) (lane k)) := by
  have hr : S2x10.Reduces [0] S10 := by decide
  refine (Ideal.hostReduceAdd_single reducesTo_S2x10_S10_d0 hr _ _ (ix1 k)).trans ?_
  refine congrArg₂ (· + ·) Ideal.ofBits_zero_f32 ?_
  show ∑ p : Fin 2, _ = _
  refine Finset.sum_congr rfl fun p _ => ?_
  have e : hr.lift (ix1 k) p = ix2 p k := by
    funext a; match a with | ⟨0, _⟩ => rfl | ⟨1, _⟩ => rfl
  rw [e]
  refine (shapeCast_apply _ shapeCasts_S2x1x10_S2x10 (ix2 p k) (ix3 p (0 : Fin 1) k) ?_).trans ?_
  · rw [Shape.rowMajor_val_three, Shape.rowMajor_val_two]
    show (p.val * 1 + 0) * 10 + k.val = p.val * 10 + k.val
    omega
  · refine congrArg X ?_
    funext a; apply Fin.ext
    match a with
    | ⟨0, _⟩ => show 0 + p.val = p.val; omega
    | ⟨1, _⟩ => show 0 + 0 = 0; rfl
    | ⟨2, _⟩ => show 0 + k.val = k.val; omega

/-- A rank-one index set is its coordinate's range, so a sum over it is the sum over the coordinate. -/
def laneEquiv {n : Nat} : (⟨1, ![n]⟩ : Shape).Idx ≃ Fin n where
  toFun j := j 0
  invFun k := ix1 k
  left_inv j := (eq_ix1 j).symm
  right_inv _ := rfl
theorem sum_lanes {n : Nat} (f : (⟨1, ![n]⟩ : Shape).Idx → EReal) : ∑ j, f j = ∑ k : Fin n, f (ix1 k) := by
  rw [← Equiv.sum_comp (laneEquiv (n := n)).symm f]
  rfl

/-- The host lines on the extended reals, given what lanes 0…9 of the two arrays add up to. -/
theorem tail_apply (C L : S2x1x128.Idx → EReal) (cnt loss : Fin 10 → EReal)
    (hC : ∀ k : Fin 10, ∑ p : Fin 2, C (ix3 p (0 : Fin 1) (lane k)) = cnt k)
    (hL : ∀ k : Fin 10, ∑ p : Fin 2, L (ix3 p (0 : Fin 1) (lane k)) = loss k) (i : S_.Idx) :
    tail (F := Ideal) C L i
      = Ideal.div (0 + ∑ k : Fin 10, Ideal.pow (max (cnt k) Cert.Spec.one) Cert.Spec.expo * loss k) Cert.Spec.total := by
  unfold tail
  refine congrArg (fun z => Ideal.div z Cert.Spec.total) ?_
  refine (Ideal.hostReduceAdd_total reducesTo_S10_S_d0 (fun b => b.elim0) _ _ i).trans ?_
  refine congrArg₂ (· + ·) Ideal.ofBits_zero_f32 ?_
  refine (sum_lanes _).trans ?_
  refine Finset.sum_congr rfl fun k _ => ?_
  show Ideal.pow (max (Host.reduceAdd (F := Ideal) _ _ reducesTo_S2x10_S10_d0 h_S_ (ix1 k)) Cert.Spec.one) Cert.Spec.expo
      * Host.reduceAdd (F := Ideal) _ _ reducesTo_S2x10_S10_d0 h_S_ (ix1 k) = _
  rw [partitions_apply, partitions_apply, hC, hL, zero_add, zero_add]

variable (m : (ℓ : Loc nD τ sig) → Buf (Elt Ideal) ℓ)

/-- The result buffer after the run: the host lines of the two arrays the region leaves. -/
theorem tail_run (c : Dev nD) :
    Pipeline.afterTail₀ cfgs (dats m) 0 (V0 m) [hostOps1] c main_v16 = tail (cntArr m c) (lossArr m c) := by
  unfold Pipeline.afterTail₀
  show StableHlo.after hostOps1 _ (Proc.devRef .tc main_v16) = _
  after_results
  show tail (F := Ideal)
      (Pipeline.withArrays spec0 c (V0 m c) (fun w => (dats m 0 c).arrAt w cfg0.N) (Proc.devRef .tc (Pipeline.arrRef spec0 3)))
      (Pipeline.withArrays spec0 c (V0 m c) (fun w => (dats m 0 c).arrAt w cfg0.N) (Proc.devRef .tc (Pipeline.arrRef spec0 4))) = _
  rw [Pipeline.withArrays_arr spec0 launch0.win.arr_inj c _ _ 3, Pipeline.withArrays_arr spec0 launch0.win.arr_inj c _ _ 4,
    final3, final4]

/-- The result of the kernel's program: the bin-by-bin form of the specification, of the argument arrays. -/
theorem result_eq (c : Dev nD) :
    Pipeline.afterTail₀ cfgs (dats m) 0 (V0 m) [hostOps1] c main_v16
      = fun _ => Cert.Spec.binwise (m ((c : Thread nD τ).loc main_arg0)) (m ((c : Thread nD τ).loc main_arg1))
          (m ((c : Thread nD τ).loc main_arg2)) := by
  rw [tail_run]
  funext i
  refine (tail_apply (cntArr m c) (lossArr m c)
    (Cert.Spec.count (m ((c : Thread nD τ).loc main_arg0)) (m ((c : Thread nD τ).loc main_arg1)) (m ((c : Thread nD τ).loc main_arg2)))
    (Cert.Spec.binLoss (m ((c : Thread nD τ).loc main_arg0)) (m ((c : Thread nD τ).loc main_arg1)) (m ((c : Thread nD τ).loc main_arg2)))
    (fun k => ?_) (fun k => ?_) i).trans rfl
  · simp only [cntArr_lane]
    rw [two_partitions (fun j => ptCount m c j k), total_count]
  · simp only [lossArr_lane]
    rw [two_partitions (fun j => ptLoss m c j k), total_loss]

end Cert.KernelIdeal.Bins

end
-- ==== Proof.KernelRun.lean ====
/-
  The kernel's program, run: every weakly fair execution ends with the result at the bin-by-bin form of the
  specification of the three argument arrays, and the arguments unchanged.
-/
import proofs.«172911_j51556787421840_2_alg».proof.Proof.Tail

set_option maxRecDepth 16384

noncomputable section

open scoped BigOperators

namespace Cert.KernelIdeal.Bins

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem kernel_run : θ_run defs (onTc (τ := τ) (main (F := Ideal))) ⟨m, fun _ => 0, ρ⟩ fun r => ∀ c : Dev nD,
      r.2.mem ((c.tc : Thread nD τ).loc main_v16)
        = (fun _ => Cert.Spec.binwise (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Bins

end
-- ==== Proof.RefValue.lean ====
import proofs.«172911_j51556787421840_2_alg».proof.Proof.Gen.ReferenceIdeal.Read
import proofs.«172911_j51556787421840_2_alg».proof.Proof.Spec
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.StableHlo
  Idealize.ShloMosaic.ValueIdx

/-- The flat argument arrays at the ideal instance: functions from the index set into the extended reals. -/
abbrev Arr : Type := (⟨S16777216, .f32⟩ : BufTy).Contents (Elt Ideal)

/-- The reference's hinge loss of pair `n` is the specification's. -/
theorem v6_eq (X0 X1 X2 : Arr) (n : S16777216.Idx) :
    val_main_v6 (F := Ideal) X0 X1 X2 n = Cert.Spec.lossAt (X0 n) (X1 n) (X2 n) := by
  rw [val_main_v6_apply, val_main_v5_apply, val_main_cst_0_apply, val_main_v4_apply, val_main_v3_apply,
    val_main_cst_apply, val_main_v2_apply, val_main_v1_apply, val_main_v0_apply]
  simp only [Ideal.maximumf_def, Ideal.addf_def, Ideal.mulf_def, Ideal.subf_def, Ideal.hostNegf_def, Ideal.negf_def,
    Ideal.ofBits_def, Ideal.ofBits_zero_f32]
  rfl

/-- The reference's proxy of pair `n`: one over one plus the exponential of minus the signed margin, which is the
    logistic of the signed margin by definition; the literal one denotes the number one. -/
theorem v20_eq (X0 X1 X2 : Arr) (n : S16777216.Idx) :
    val_main_v20 (F := Ideal) X0 X1 X2 n = Cert.Spec.gAt (X0 n) (X1 n) (X2 n) := by
  rw [val_main_v20_apply, val_main_v19_apply, val_main_cst_5_apply, val_main_v18_apply, val_main_v17_apply,
    val_main_cst_4_apply, val_main_v16_apply, val_main_v15_apply, val_main_v14_apply, val_main_v13_apply,
    val_main_cst_3_apply, val_main_v12_apply, val_main_v11_apply, val_main_v10_apply, val_main_v9_apply,
    val_main_cst_2_apply, val_main_v8_apply, val_main_v7_apply, val_main_cst_1_apply, val_main_v0_apply]
  simp only [Ideal.hostDivf_def, Ideal.addf_def, Ideal.mulf_def, Ideal.subf_def, Ideal.hostNegf_def, Ideal.negf_def,
    Ideal.ofBits_def, Ideal.ofBits_zero_f32, Ideal.hostUnary_exp_def]
  show Ideal.div Cert.Spec.one (Cert.Spec.one + Ideal.exp
      (-(-(X0 n - X1 n) * (Cert.Spec.two * X2 n - Cert.Spec.one) + 0)))
    = Ideal.div 1 (1 + Ideal.exp (-(-(X0 n - X1 n) * (Cert.Spec.two * X2 n - Cert.Spec.one) + 0)))
  rw [Cert.Spec.one_eq]

/-- The reference's bin word of pair `n` is the specification's. -/
theorem v25_eq (X0 X1 X2 : Arr) (n : S16777216.Idx) :
    val_main_v25 (F := Ideal) X0 X1 X2 n = Cert.Spec.binWord (X0 n) (X1 n) (X2 n) := by
  rw [val_main_v25_apply, val_main_call0_v4_apply, val_main_call0_v3_apply, val_main_c_7_apply,
    val_main_call0_v2_apply, val_main_call0_v1_apply, val_main_call0_v0_apply, val_main_c_apply,
    val_main_v24_apply, val_main_v23_apply, val_main_v22_apply, val_main_v21_apply, val_main_cst_6_apply, v20_eq]
  rfl

/-! ## The scatter: where an update lands -/

/-- The scatter's dimension numbers. -/
abbrev sd : ScatterDims S10 S16777216x1 S16777216 := scatter_S10_S16777216x1_S16777216_n_0_0_1

theorem sd_mem : (0 : Fin S10.rank) ∈ sd.scatterDimsToOperandDims := List.mem_singleton.mpr rfl

/-- The scatter-indices index the update `j` reads its start at: `[j, 0]`. -/
abbrev sdIdx (j : S16777216.Idx) : S16777216x1.Idx :=
  sd.siIdx j ⟨sd.scatterDimsToOperandDims.idxOf (0 : Fin S10.rank), List.idxOf_lt_length_iff.2 sd_mem⟩

theorem sd_start {w : Nat} (idx : IVec S16777216x1 w) (j : S16777216.Idx) :
    sd.start j idx 0 = (idx (sdIdx j)).toInt := by
  unfold ScatterDims.start
  rw [dif_pos sd_mem]

theorem sd_window (j : S16777216.Idx) : sd.window j 0 = 0 := by
  unfold ScatterDims.window
  rw [dif_neg (by decide)]

/-- Update `j` lands on element `k` exactly when its start index, read signed, is `k`. -/
theorem sd_resultIdx {w : Nat} (idx : IVec S16777216x1 w) (j : S16777216.Idx) (k : Fin 10) :
    sd.resultIdx? j idx = some (ix1 k) ↔ (idx (sdIdx j)).toInt = (k.val : Int) := by
  unfold ScatterDims.resultIdx?
  split
  · rename_i h
    rw [Option.some.injEq]
    constructor
    · intro hf
      have := congrArg (fun f => (f 0).val) hf
      simp only [sd_start, sd_window] at this
      have h0 := (h 0).1
      rw [sd_start, sd_window] at h0
      show _ = ((ix1 k (0 : Fin 1)).val : Int)
      omega
    · intro hk
      funext a
      obtain rfl : a = 0 := Subsingleton.elim _ _
      refine Fin.ext ?_
      show (sd.start j idx 0 + (sd.window j 0 : Int)).toNat = k.val
      rw [sd_start, sd_window, hk]
      omega
  · rename_i h
    constructor
    · intro hf; exact absurd hf (by simp)
    · intro hk
      exfalso; apply h
      intro a
      obtain rfl : a = 0 := Subsingleton.elim _ _
      rw [sd_start, sd_window, hk]
      have := k.isLt
      constructor
      · omega
      · show (k.val : Int) + ((0 : Nat) : Int) < ((10 : Nat) : Int)
        omega

/-! ## Words below ten -/

theorem toInt_of_lt_ten (w : BitVec 32) (h : w.toNat < 10) : w.toInt = (w.toNat : Int) := by
  have hx := BitVec.toInt_eq_toNat_cond w
  split_ifs at hx <;> omega

theorem binWord_lt (a b t : EReal) : (Cert.Spec.binWord a b t).toNat < 10 := Cert.Spec.clip_lt _

theorem binWord_toInt (a b t : EReal) :
    (Cert.Spec.binWord a b t).toInt = ((Cert.Spec.binWord a b t).toNat : Int) :=
  toInt_of_lt_ten _ (binWord_lt a b t)

/-! ## The counts -/

/-- Element `k` of a scatter-add with these dimension numbers: the operand's element plus the updates whose start
    index, read signed, is `k`. -/
theorem scatter_at {w : Nat} (x : S10.Idx → EReal) (idx : IVec S16777216x1 w) (upd : S16777216.Idx → EReal) (k : Fin 10) :
    Ideal.hostScatterAdd sd x idx upd (ix1 k)
      = x (ix1 k) + ∑ j : S16777216.Idx, if (idx (sdIdx j)).toInt = (k.val : Int) then upd j else 0 := by
  unfold Ideal.hostScatterAdd
  rw [Finset.sum_filter]
  refine congrArg (fun z : EReal => x (ix1 k) + z) (Finset.sum_congr rfl fun j _ => ?_)
  by_cases h : (idx (sdIdx j)).toInt = (k.val : Int)
  · rw [if_pos ((sd_resultIdx idx j k).mpr h), if_pos h]
  · rw [if_neg (fun h' => h ((sd_resultIdx idx j k).mp h')), if_neg h]

/-- The start index update `j` reads in the bin array laid out as a column is pair `j`'s bin word. -/
theorem v28_at (X0 X1 X2 : Arr) (j : S16777216.Idx) :
    val_main_v28 (F := Ideal) X0 X1 X2 (sdIdx j) = Cert.Spec.binWord (X0 j) (X1 j) (X2 j) := by
  rw [val_main_v28_apply]
  have hj : idx_main_v28 (sdIdx j) = j := by
    funext a
    match a with
    | ⟨0, _⟩ => exact Fin.ext rfl
  rw [hj, v25_eq]

/-- Element `k` of the scattered array: zero plus one for every pair whose bin is `k`. -/
theorem v29_eq (X0 X1 X2 : Arr) (k : Fin 10) :
    val_main_v29 (F := Ideal) X0 X1 X2 (ix1 k) = 0 + Cert.Spec.count X0 X1 X2 k := by
  rw [val_main_v29, Host.scatterAdd, Ideal.hostScatterAdd_def, scatter_at, val_main_v27_apply, val_main_cst_9_apply, Ideal.ofBits_def,
    Ideal.ofBits_zero_f32]
  refine congrArg (fun z : EReal => 0 + z) ?_
  unfold Cert.Spec.count
  refine Finset.sum_congr (Finset.ext fun x => ⟨fun _ => Finset.mem_univ x, fun _ => Finset.mem_univ x⟩) fun j _ => ?_
  rw [v28_at, binWord_toInt, val_main_v26_apply, val_main_cst_8_apply, Ideal.ofBits_def]
  by_cases hb : Cert.Spec.binArr X0 X1 X2 j = k
  · have hk : ((Cert.Spec.binWord (X0 j) (X1 j) (X2 j)).toNat : Int) = (k.val : Int) := by subst hb; rfl
    rw [if_pos hk, if_pos hb]
    exact Cert.Spec.one_eq
  · have hk : ¬ ((Cert.Spec.binWord (X0 j) (X1 j) (X2 j)).toNat : Int) = (k.val : Int) :=
      fun h => hb (Fin.ext (by exact_mod_cast h))
    rw [if_neg hk, if_neg hb]

/-- Element `k` of the weights: the count, at least one, to the power -3/4. -/
theorem v33_eq (X0 X1 X2 : Arr) (k : Fin 10) :
    val_main_v33 (F := Ideal) X0 X1 X2 (ix1 k) = Cert.Spec.weight X0 X1 X2 k := by
  rw [val_main_v33_apply, val_main_v32_apply, val_main_cst_11_apply, val_main_v31_apply, val_main_v30_apply,
    val_main_cst_10_apply, v29_eq, zero_add]
  unfold Cert.Spec.weight
  generalize Cert.Spec.count X0 X1 X2 k = c
  simp only [Ideal.hostPowf_def, Ideal.maximumf_def, Ideal.ofBits_def]

/-! ## The gather: which weight pair `j` reads -/

/-- The gather's dimension numbers. -/
abbrev gd : GatherDims S10 S16777216x1 S16777216 := gather_S10_S16777216x1_S16777216_n_0_n_n_0_1_1

theorem gd_mem : (0 : Fin S10.rank) ∈ gd.startIndexMap := List.mem_singleton.mpr rfl

/-- The start-indices index result element `j` reads its start at: `[j, 0]`. -/
abbrev gdIdx (j : S16777216.Idx) : S16777216x1.Idx :=
  gd.siIdx j ⟨gd.startIndexMap.idxOf (0 : Fin S10.rank), List.idxOf_lt_length_iff.2 gd_mem⟩

/-- Result element `j` of the gather: the operand at the start index `idx[j, 0]`, read signed and clamped into [0, 9]. -/
theorem gather_apply {α : Type} {w : Nat} (x : S10.Idx → α) (idx : IVec S16777216x1 w) (j : S16777216.Idx) :
    Host.gather gd x idx j = x (ix1 ⟨min (idx (gdIdx j)).toInt.toNat 9, by omega⟩) := by
  unfold Host.gather
  congr 1
  funext a
  obtain rfl : a = 0 := Subsingleton.elim _ _
  refine Fin.ext ?_
  show gd.start j idx 0 + gd.batchCoord j 0 + gd.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos gd_mem]
  rfl

/-- The start index result element `j` reads is pair `j`'s bin word: the bin is not negative, so the wrap-around
    of negative indices leaves it as it is. -/
theorem v39_at (X0 X1 X2 : Arr) (j : S16777216.Idx) :
    val_main_v39 (F := Ideal) X0 X1 X2 (gdIdx j) = Cert.Spec.binWord (X0 j) (X1 j) (X2 j) := by
  rw [val_main_v39_apply]
  have hj : idx_main_v39 (gdIdx j) = j := by
    funext a
    match a with
    | ⟨0, _⟩ => exact Fin.ext rfl
  rw [hj, val_main_v38_apply, val_main_v35_apply, val_main_v34_apply, val_main_c_12_apply, v25_eq]
  have hw := binWord_toInt (X0 j) (X1 j) (X2 j)
  have h0 : (0#32 : BitVec 32).toInt = 0 := by decide
  have hns : ¬ (Cert.Spec.binWord (X0 j) (X1 j) (X2 j)).slt 0#32 := by
    rw [BitVec.slt_iff_toInt_lt, h0, hw]; omega
  have hf : (Cert.Spec.binWord (X0 j) (X1 j) (X2 j)).slt 0#32 = false := by simpa using hns
  have hc : IntOp.cmpi .slt (Cert.Spec.binWord (X0 j) (X1 j) (X2 j)) 0#32 = 0#1 := by
    show BitVec.ofBool ((Cert.Spec.binWord (X0 j) (X1 j) (X2 j)).slt 0#32) = 0#1
    rw [hf]; rfl
  rw [hc, select_zero]

/-- Pair `j` reads the weight of its own bin. -/
theorem v40_eq (X0 X1 X2 : Arr) (j : S16777216.Idx) :
    val_main_v40 (F := Ideal) X0 X1 X2 j
      = val_main_v33 (F := Ideal) X0 X1 X2 (ix1 (Cert.Spec.binArr X0 X1 X2 j)) := by
  rw [val_main_v40, gather_apply]
  refine congrArg _ (congrArg ix1 (Fin.ext ?_))
  show min (val_main_v39 (F := Ideal) X0 X1 X2 (gdIdx j)).toInt.toNat 9
    = (Cert.Spec.binWord (X0 j) (X1 j) (X2 j)).toNat
  rw [v39_at]
  have h1 := binWord_toInt (X0 j) (X1 j) (X2 j)
  have h2 := binWord_lt (X0 j) (X1 j) (X2 j)
  omega

/-! ## The result -/

/-- The reference's result is the pair-by-pair form of the specification. -/
theorem ref_result (X0 X1 X2 : (⟨Cert.ReferenceIdeal.S16777216, .f32⟩ : BufTy).Contents (Elt Ideal)) :
    Cert.ReferenceIdeal.Read.val_main_v43 (F := Ideal) X0 X1 X2 = fun _ => Cert.Spec.pairwise X0 X1 X2 := by
  funext i
  show val_main_v43 (F := Ideal) X0 X1 X2 i = Cert.Spec.pairwise X0 X1 X2
  rw [val_main_v43_apply, val_main_cst_15_apply, val_main_v42_apply, val_main_cst_14_apply, Ideal.hostDivf_def]
  unfold Cert.Spec.pairwise
  refine congrArg₂ Ideal.div ?_ rfl
  refine congrArg₂ (fun a b : EReal => a + b) Ideal.ofBits_zero_f32 ?_
  refine Finset.sum_congr (Finset.ext fun x => ⟨fun _ => Finset.mem_univ x, fun _ => Finset.mem_univ x⟩) fun j _ => ?_
  rw [val_main_v41_apply, v6_eq, v40_eq, v33_eq, Ideal.mulf_def]
  rfl

end Cert.RefValue

end
-- ==== Proof.lean ====
/-
  The certificate of the fused, binned ranking loss.

  Each of 2^24 pairs has a hinge loss and a bin in {0,…,9}; bin k has a weight, (max (count k) 1)^(-3/4). The kernel
  accumulates, partition by partition and block by block, the count and the loss of every bin in lanes 0…9 of two
  rows, and the host lines after it form  Σ_k weight k · loss k / 2^24  (the bin-by-bin form). The reference forms
  Σ_n loss n · weight (bin n) / 2^24  (the pair-by-pair form) with a scatter-add for the counts and a gather for the
  weights. On the extended reals the two are one number: every loss is nonnegative, so each weight distributes over its
  bin's sum of losses, whatever the weight. The frames are the generated ones; nothing was rewritten by the
  idealization, so the preservation claim is trivial.
-/
import proofs.«172911_j51556787421840_2_alg».proof.Defs
import proofs.«172911_j51556787421840_2_alg».proof.Proof.Gen.Kernel
import proofs.«172911_j51556787421840_2_alg».proof.Proof.Gen.Kernel.Frame
import proofs.«172911_j51556787421840_2_alg».proof.Proof.Gen.KernelIdeal
import proofs.«172911_j51556787421840_2_alg».proof.Proof.Gen.KernelIdeal.Frame
import proofs.«172911_j51556787421840_2_alg».proof.Proof.Gen.ReferenceIdeal
import proofs.«172911_j51556787421840_2_alg».proof.Proof.Gen.ReferenceIdeal.Run
import proofs.«172911_j51556787421840_2_alg».proof.Proof.Gen.ReferenceIdeal.Read
import proofs.«172911_j51556787421840_2_alg».proof.Proof.Gen.Pre_finite_inputs
import proofs.«172911_j51556787421840_2_alg».proof.Proof.KernelRun
import proofs.«172911_j51556787421840_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's program ends at the bin-by-bin weighted sum and the reference at the
    pair-by-pair one, of arguments that agree; the two are one number because every loss is nonnegative
    (`Cert.Spec.binwise_eq_pairwise`). -/
theorem algebraic : Cert.algebraic_KernelIdeal_ReferenceIdeal := by
  intro m ρ m' ρ' _ hagree
  refine ⟨fun c _ => Cert.Spec.binwise (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Bins.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.RefValue.ref_result, (hagree c).1, (hagree c).2.1, (hagree c).2.2]
  exact funext fun _ => (Cert.Spec.binwise_eq_pairwise _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
